-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x32x128x128 : Shape := ⟨5, ![16, 12, 32, 128, 128]⟩
abbrev S_ : Shape := ⟨0, ![]⟩

class Facts : Prop where
  bcast_S_S16x12x32x128x128 : S_.BroadcastsInDim S16x12x32x128x128 (![] : Fin 0 → Fin S16x12x32x128x128.rank)
  reducesTo_S16x12x32x128x128_S_d0_1_2_3_4 : S16x12x32x128x128.ReducesTo [0, 1, 2, 3, 4] S_
  h_S_ : 0 < S_.numel

variable [Facts]

def fn {F : FTy → Type} [FloatOps F] (main_arg0 : FVec F S16x12x32x128x128 .f32) : IVec S_ 1 :=
  let main_v0 : FVec F S16x12x32x128x128 .f32 := Host.absf main_arg0
  let main_cst : FVec F S_ .f32 := constant S_ .f32 0x7F800000#32
  let main_v1 : FVec F S16x12x32x128x128 .f32 := broadcastInDim S16x12x32x128x128 ![] bcast_S_S16x12x32x128x128 main_cst
  let main_v2 : IVec S16x12x32x128x128 1 := cmpf .olt main_v0 main_v1
  let main_c : IVec S_ 1 := constantI S_ 1 1#1
  let main_v3 : IVec S_ 1 := (fun x v => Host.reduce IntOp.andi x v reducesTo_S16x12x32x128x128_S_d0_1_2_3_4 h_S_) main_v2 main_c
  main_v3
-- ==== Kernel.lean ====
abbrev S16x12x32x128x128 : Shape := ⟨5, ![16, 12, 32, 128, 128]⟩
abbrev S6144x128x128 : Shape := ⟨3, ![6144, 128, 128]⟩
abbrev S96x128x128 : Shape := ⟨3, ![96, 128, 128]⟩
abbrev S96x128 : Shape := ⟨2, ![96, 128]⟩
abbrev S96x128x1 : Shape := ⟨3, ![96, 128, 1]⟩
abbrev S96x1 : Shape := ⟨2, ![96, 1]⟩
abbrev S96x1x1 : Shape := ⟨3, ![96, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x12x32x128x128, .f32⟩
  | .hbm, ⟨1, _⟩ => ⟨S6144x128x128, .f32⟩
  | .hbm, ⟨2, _⟩ => ⟨S6144x128x128, .f32⟩
  | .hbm, ⟨3, _⟩ => ⟨S16x12x32x128x128, .f32⟩
  | .local _ .vmem, ⟨0, _⟩ => ⟨S96x128x128, .f32⟩
  | .local _ .vmem, ⟨1, _⟩ => ⟨S96x128x128, .f32⟩
  | .local _ .vmem, ⟨2, _⟩ => ⟨S96x128x128, .f32⟩
  | .local _ .vmem, ⟨3, _⟩ => ⟨S96x128x128, .f32⟩
  | _, _ => ⟨S16x12x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S96x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x12x32x128x128_S6144x128x128 : S16x12x32x128x128.ShapeCasts S6144x128x128
  inb_S96x128x128_S96x128x128_0_0_0 : ∀ a, (![0, 0, 0] : Fin 3 → Nat) a + S96x128x128.size a ≤ S96x128x128.size a
  h_S96x128x128 : 0 < S96x128x128.numel
  shapeCasts_S96x128x128_S96x128x128 : S96x128x128.ShapeCasts S96x128x128
  reduces_S96x128x128_S96x128 : S96x128x128.Reduces [2] S96x128
  shapeCasts_S96x128_S96x128x1 : S96x128.ShapeCasts S96x128x1
  reduces_S96x128x1_S96x1 : S96x128x1.Reduces [1] S96x1
  shapeCasts_S96x1_S96x1x1 : S96x1.ShapeCasts S96x1x1
  broadcasts_S96x1x1_S96x128x128 : S96x1x1.Broadcasts S96x128x128
  shapeCasts_S6144x128x128_S16x12x32x128x128 : S6144x128x128.ShapeCasts S16x12x32x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x128x128.size a ≤ S6144x128x128.size a
  hwx0_0 : ∀ i : grid0.Coords, EltTy.bits .f32 = 32 ∨ (Rect.block (s := S6144x128x128) S96x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S96x128x128.size a ≤ S6144x128x128.size a
  hwx0_1 : ∀ i : grid0.Coords, EltTy.bits .f32 = 32 ∨ (Rect.block (s := S6144x128x128) S96x128x128.size (cc0_transform_1 i) (hinb0_1 i)).WholeWords (EltTy.packing .f32)

variable [Facts₀]

abbrev win0_0 : Pipeline.Window sig grid0 :=
  Pipeline.Window.ofSpec (Memref.whole main_v0) S96x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S96x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x12x32x128x128 : Shape := ⟨5, ![16, 12, 32, 128, 128]⟩
abbrev S_ : Shape := ⟨0, ![]⟩
abbrev S16x12x32 : Shape := ⟨3, ![16, 12, 32]⟩
abbrev S16x12x32x1x1 : Shape := ⟨5, ![16, 12, 32, 1, 1]⟩

abbrev nBuf : Space → Nat
  | .hbm => 15
  | .vmem => 0
  | .smem => 0
  | _ => 0

abbrev bufTy : (tb : Table) → Fin (tcTables nBuf tb) → BufTy
  | .hbm, ⟨0, _⟩ => ⟨S16x12x32x128x128, .f32⟩
  | .hbm, ⟨1, _⟩ => ⟨S_, .f32⟩
  | .hbm, ⟨2, _⟩ => ⟨S16x12x32, .f32⟩
  | .hbm, ⟨3, _⟩ => ⟨S16x12x32x1x1, .f32⟩
  | .hbm, ⟨4, _⟩ => ⟨S_, .f32⟩
  | .hbm, ⟨5, _⟩ => ⟨S16x12x32, .f32⟩
  | .hbm, ⟨6, _⟩ => ⟨S16x12x32x1x1, .f32⟩
  | .hbm, ⟨7, _⟩ => ⟨S16x12x32x128x128, .f32⟩
  | .hbm, ⟨8, _⟩ => ⟨S16x12x32x128x128, .f32⟩
  | .hbm, ⟨9, _⟩ => ⟨S16x12x32x1x1, .f32⟩
  | .hbm, ⟨10, _⟩ => ⟨S_, .f32⟩
  | .hbm, ⟨11, _⟩ => ⟨S16x12x32x1x1, .f32⟩
  | .hbm, ⟨12, _⟩ => ⟨S16x12x32x1x1, .f32⟩
  | .hbm, ⟨13, _⟩ => ⟨S16x12x32x128x128, .f32⟩
  | .hbm, ⟨14, _⟩ => ⟨S16x12x32x128x128, .f32⟩
  | _, _ => ⟨S16x12x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  reducesTo_S16x12x32x128x128_S16x12x32_d3_4 : S16x12x32x128x128.ReducesTo [3, 4] S16x12x32
  h_S_ : 0 < S_.numel
  bcast_S16x12x32_S16x12x32x1x1_0_1_2 : S16x12x32.BroadcastsInDim S16x12x32x1x1 (![0, 1, 2] : Fin 3 → Fin S16x12x32x1x1.rank)
  bcast_S16x12x32x1x1_S16x12x32x128x128_0_1_2_3_4 : S16x12x32x1x1.BroadcastsInDim S16x12x32x128x128 (![0, 1, 2, 3, 4] : Fin 5 → Fin S16x12x32x128x128.rank)
  bcast_S_S16x12x32x1x1 : S_.BroadcastsInDim S16x12x32x1x1 (![] : Fin 0 → Fin S16x12x32x1x1.rank)

variable [Facts₀]

class Facts : Prop extends Facts₀ where

variable [Facts]
-- ==== Proof.LibPooling.lean ====
/-
  Pooling along the last axis of a stack of matrices, and a pooled matrix spread back over that axis, read at
  explicit coordinates.

  A `B × C × S` array is `B` matrices of `C` rows and `S` columns. Summing, or taking the maximum, along the
  last axis leaves a `B × C` matrix whose entry `(b, c)` is the sum (the maximum) of row `c` of matrix `b`.
  To multiply every row by a number of its own the `B × C` matrix is reshaped to `B × C × 1` and spread along
  the last axis to `B × C × S`: entry `(b, c, s)` of the spread array is entry `(b, c)` of the matrix.
-/
import Idealize.ShloMosaic.Lib.ValueIdx
import Idealize.ShloMosaic.Lib.Pipeline.Value
import Idealize.ShloMosaic.PureOps.Ideal.Laws

namespace Cert.LibPooling

open Idealize.ShloMosaic Idealize.ShloMosaic.ValueIdx

variable {α : Type}

/-- The coordinates of the index a last-axis reduction reads: those of the kept index, then the summation index. -/
theorem lift_last3 {B C S : ℕ} (h : (⟨3, ![B, C, S]⟩ : Shape).Reduces [2] ⟨2, ![B, C]⟩) (b : Fin B) (c : Fin C) (s : Fin S) :
    h.lift (ix2 b c) s = ix3 b c s :=
  funext fun a => Fin.ext (by
    match a with
    | ⟨0, _⟩ => rfl
    | ⟨1, _⟩ => rfl
    | ⟨2, _⟩ => rfl)

/-- The sum along the last axis, at `(b, c)`: the sum of row `c` of matrix `b`. -/
theorem sum_last3_apply {B C S : ℕ} {φ : FTy} (x : FVec Ideal ⟨3, ![B, C, S]⟩ φ) (acc : BitVec φ.bits)
    (h : (⟨3, ![B, C, S]⟩ : Shape).Reduces [2] ⟨2, ![B, C]⟩) (hφ : FKind.Formats φ) (hacc : acc = FKind.add.neutral φ hφ)
    (b : Fin B) (c : Fin C) :
    multiReduction .add [2] ⟨2, ![B, C]⟩ x acc h hφ hacc (ix2 b c) = ∑ s : Fin S, x (ix3 b c s) :=
  (Ideal.multiReduction_add_single x acc h hφ hacc (ix2 b c)).trans
    (Finset.sum_congr rfl fun s _ => congrArg x (lift_last3 h b c s))

/-- The maximum along the last axis, at `(b, c)`: the maximum of row `c` of matrix `b`, folded from the
    starting value. -/
theorem max_last3_apply {B C S : ℕ} {φ : FTy} (x : FVec Ideal ⟨3, ![B, C, S]⟩ φ) (acc : BitVec φ.bits)
    (h : (⟨3, ![B, C, S]⟩ : Shape).Reduces [2] ⟨2, ![B, C]⟩) (hφ : FKind.Formats φ) (hacc : acc = FKind.maximumf.neutral φ hφ)
    (b : Fin B) (c : Fin C) :
    multiReduction .maximumf [2] ⟨2, ![B, C]⟩ x acc h hφ hacc (ix2 b c)
      = (Finset.univ : Finset (Fin S)).fold max (Ideal.ofBits φ acc) (fun s => x (ix3 b c s)) :=
  (Ideal.multiReduction_maximumf_single x acc h hφ hacc (ix2 b c)).trans
    (congrArg ((Finset.univ : Finset (Fin S)).fold max (Ideal.ofBits φ acc)) (funext fun s => congrArg x (lift_last3 h b c s)))

/-- A `B × C` matrix reshaped to `B × C × 1`: entry `(b, c, u)` is the matrix's entry `(b, c)`. -/
theorem shapeCast_bc_bc1_apply {B C : ℕ} (x : (⟨2, ![B, C]⟩ : Shape).Idx → α)
    (h : (⟨2, ![B, C]⟩ : Shape).ShapeCasts ⟨3, ![B, C, 1]⟩) (b : Fin B) (c : Fin C) (u : Fin 1) :
    shapeCast ⟨3, ![B, C, 1]⟩ x h (ix3 b c u) = x (ix2 b c) :=
  shapeCast_apply x h _ _ (by
    have hu : u.val = 0 := by omega
    rw [Shape.rowMajor_val_three, Shape.rowMajor_val_two]
    show b.val * C + c.val = (b.val * C + c.val) * 1 + u.val
    rw [hu, Nat.mul_one, Nat.add_zero])

/-- A `B × C × 1` array spread along the last axis to `B × C × S`: entry `(b, c, s)` is the array's entry
    `(b, c, 0)`. -/
theorem broadcastTo_bc1_bcs_apply {B C S : ℕ} (v : (⟨3, ![B, C, 1]⟩ : Shape).Idx → α)
    (h : (⟨3, ![B, C, 1]⟩ : Shape).Broadcasts ⟨3, ![B, C, S]⟩) (b : Fin B) (c : Fin C) (s : Fin S) :
    broadcastTo ⟨3, ![B, C, S]⟩ v h (ix3 b c s) = v (ix3 b c (0 : Fin 1)) := by
  refine broadcastTo_apply v h (ix3 b c s) (ix3 b c (0 : Fin 1)) fun ax => ?_
  match ax with
  | ⟨0, _⟩ =>
    show b.val = if B = 1 then 0 else b.val
    split
    · have := b.isLt; omega
    · rfl
  | ⟨1, _⟩ =>
    show c.val = if C = 1 then 0 else c.val
    split
    · have := c.isLt; omega
    · rfl
  | ⟨2, _⟩ => rfl

end Cert.LibPooling
-- ==== Proof.LibMidMax.lean ====
/-
  The maximum along the middle axis of a stack of matrices, read at explicit coordinates.

  A `B × R × S` array is `B` matrices of `R` rows and `S` columns. Taking the maximum along the middle axis leaves a
  `B × S` matrix whose entry `(b, s)` is the maximum of column `s` of matrix `b`, folded from the starting value.
-/
import Idealize.ShloMosaic.Lib.ValueIdx
import Idealize.ShloMosaic.Lib.Pipeline.Value
import Idealize.ShloMosaic.PureOps.Ideal.Laws

namespace Cert.LibMidMax

open Idealize.ShloMosaic Idealize.ShloMosaic.ValueIdx

/-- The coordinates of the index a middle-axis reduction reads: the kept index with the reduced coordinate put back
    between its two. -/
theorem lift_mid3 {B R S : ℕ} (h : (⟨3, ![B, R, S]⟩ : Shape).Reduces [1] ⟨2, ![B, S]⟩) (b : Fin B) (s : Fin S) (r : Fin R) :
    h.lift (ix2 b s) r = ix3 b r s :=
  funext fun a => Fin.ext (by
    match a with
    | ⟨0, _⟩ => rfl
    | ⟨1, _⟩ => rfl
    | ⟨2, _⟩ => rfl)

/-- The maximum along the middle axis, at `(b, s)`: the maximum of column `s` of matrix `b`, folded from the
    starting value. -/
theorem max_mid3_apply {B R S : ℕ} {φ : FTy} (x : FVec Ideal ⟨3, ![B, R, S]⟩ φ) (acc : BitVec φ.bits)
    (h : (⟨3, ![B, R, S]⟩ : Shape).Reduces [1] ⟨2, ![B, S]⟩) (hφ : FKind.Formats φ) (hacc : acc = FKind.maximumf.neutral φ hφ)
    (b : Fin B) (s : Fin S) :
    multiReduction .maximumf [1] ⟨2, ![B, S]⟩ x acc h hφ hacc (ix2 b s)
      = (Finset.univ : Finset (Fin R)).fold max (Ideal.ofBits φ acc) (fun r => x (ix3 b r s)) :=
  (Ideal.multiReduction_maximumf_single x acc h hφ hacc (ix2 b s)).trans
    (congrArg ((Finset.univ : Finset (Fin R)).fold max (Ideal.ofBits φ acc)) (funext fun r => congrArg x (lift_mid3 h b s r)))

end Cert.LibMidMax
-- ==== Proof.LibExtrema.lean ====
/-
  Least and greatest entries: folds of `min` and `max` as infima and suprema, and minimum reductions of a stack of
  matrices read at explicit coordinates.

  In a complete linear order the fold of `min` from the top element over a finite family is the family's infimum, and
  the fold of `max` from the bottom element its supremum; the same holds for a fold over the members of the whole
  index type that satisfy a predicate, once a map `e` lists exactly those members. A `B × C × S` array is `B`
  matrices of `C` rows and `S` columns: its minimum along the last axis leaves a `B × C` matrix whose entry `(b, c)`
  is the minimum of row `c` of matrix `b`, its minimum along the middle axis a `B × S` matrix whose entry `(b, s)` is
  the minimum of column `s` of matrix `b`, each folded from the starting value. A `B × 1 × 1` array spread to
  `B × R × S` reads, at `(b, r, s)`, its entry `(b, 0, 0)`. The f32 words `0x7F800000` and `0xFF800000` are the top
  and the bottom of the extended reals.
-/
import Idealize.ShloMosaic.Lib.ValueIdx
import Idealize.ShloMosaic.Lib.Pipeline.Value
import Idealize.ShloMosaic.PureOps.Ideal.Laws
import proofs.«134991_j51969104282122_2_alg».proof.Proof.LibPooling
import proofs.«134991_j51969104282122_2_alg».proof.Proof.LibMidMax

namespace Cert.LibExtrema

open Idealize.ShloMosaic Idealize.ShloMosaic.ValueIdx

section Lattice
variable {α : Type} [CompleteLinearOrder α] {ι κ : Type}

/-- The fold of `min` from the top over a whole finite index type is the infimum. -/
theorem fold_min_univ_top [Fintype κ] (f : κ → α) : (Finset.univ : Finset κ).fold min ⊤ f = ⨅ k, f k := by
  refine eq_of_forall_le_iff fun c => ?_
  rw [Finset.le_fold_min, le_iInf_iff]
  exact ⟨fun h k => h.2 k (Finset.mem_univ k), fun h => ⟨le_top, fun k _ => h k⟩⟩

/-- The fold of `max` from the bottom over a whole finite index type is the supremum. -/
theorem fold_max_univ_bot [Fintype κ] (f : κ → α) : (Finset.univ : Finset κ).fold max ⊥ f = ⨆ k, f k := by
  refine eq_of_forall_ge_iff fun c => ?_
  rw [Finset.fold_max_le, iSup_le_iff]
  exact ⟨fun h k => h.2 k (Finset.mem_univ k), fun h => ⟨bot_le, fun k _ => h k⟩⟩

/-- The fold of `min` from the top over the indices that satisfy `p`, which `e` lists, is the infimum along `e`. -/
theorem fold_min_fiber [Fintype ι] (p : ι → Prop) [DecidablePred p] (e : κ → ι) (hp : ∀ i, p i ↔ ∃ k, e k = i)
    (x : ι → α) : (Finset.univ.filter p).fold min ⊤ x = ⨅ k, x (e k) := by
  refine eq_of_forall_le_iff fun c => ?_
  rw [Finset.le_fold_min, le_iInf_iff]
  constructor
  · rintro ⟨-, h⟩ k
    exact h (e k) (Finset.mem_filter.2 ⟨Finset.mem_univ _, (hp _).2 ⟨k, rfl⟩⟩)
  · intro h
    refine ⟨le_top, fun i hi => ?_⟩
    obtain ⟨k, rfl⟩ := (hp i).1 (Finset.mem_filter.1 hi).2
    exact h k

/-- The fold of `max` from the bottom over the indices that satisfy `p`, which `e` lists, is the supremum along `e`. -/
theorem fold_max_fiber [Fintype ι] (p : ι → Prop) [DecidablePred p] (e : κ → ι) (hp : ∀ i, p i ↔ ∃ k, e k = i)
    (x : ι → α) : (Finset.univ.filter p).fold max ⊥ x = ⨆ k, x (e k) := by
  refine eq_of_forall_ge_iff fun c => ?_
  rw [Finset.fold_max_le, iSup_le_iff]
  constructor
  · rintro ⟨-, h⟩ k
    exact h (e k) (Finset.mem_filter.2 ⟨Finset.mem_univ _, (hp _).2 ⟨k, rfl⟩⟩)
  · intro h
    refine ⟨bot_le, fun i hi => ?_⟩
    obtain ⟨k, rfl⟩ := (hp i).1 (Finset.mem_filter.1 hi).2
    exact h k

end Lattice

/-- The f32 word of `+∞` is the top of the extended reals. -/
theorem ofBits_pinf : Ideal.ofBits .f32 0x7F800000#32 = ⊤ := by simp [Ideal.ofBits, Ideal.ieee]
/-- The f32 word of `-∞` is the bottom of the extended reals. -/
theorem ofBits_ninf : Ideal.ofBits .f32 0xFF800000#32 = ⊥ := by simp [Ideal.ofBits, Ideal.ieee]

/-- A minimum reduction over one axis, read on the extended reals: the fold of `min` from the starting value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The minimum along the last axis, at `(b, c)`: the minimum of row `c` of matrix `b`, folded from the starting value. -/
theorem min_last3_apply {B C S : ℕ} {φ : FTy} (x : FVec Ideal ⟨3, ![B, C, S]⟩ φ) (acc : BitVec φ.bits)
    (h : (⟨3, ![B, C, S]⟩ : Shape).Reduces [2] ⟨2, ![B, C]⟩) (hφ : FKind.Formats φ) (hacc : acc = FKind.minimumf.neutral φ hφ)
    (b : Fin B) (c : Fin C) :
    multiReduction .minimumf [2] ⟨2, ![B, C]⟩ x acc h hφ hacc (ix2 b c)
      = (Finset.univ : Finset (Fin S)).fold min (Ideal.ofBits φ acc) (fun s => x (ix3 b c s)) :=
  (multiReduction_minimumf_single x acc h hφ hacc (ix2 b c)).trans
    (congrArg ((Finset.univ : Finset (Fin S)).fold min (Ideal.ofBits φ acc)) (funext fun s => congrArg x (LibPooling.lift_last3 h b c s)))

/-- The minimum along the middle axis, at `(b, s)`: the minimum of column `s` of matrix `b`, folded from the starting
    value. -/
theorem min_mid3_apply {B R S : ℕ} {φ : FTy} (x : FVec Ideal ⟨3, ![B, R, S]⟩ φ) (acc : BitVec φ.bits)
    (h : (⟨3, ![B, R, S]⟩ : Shape).Reduces [1] ⟨2, ![B, S]⟩) (hφ : FKind.Formats φ) (hacc : acc = FKind.minimumf.neutral φ hφ)
    (b : Fin B) (s : Fin S) :
    multiReduction .minimumf [1] ⟨2, ![B, S]⟩ x acc h hφ hacc (ix2 b s)
      = (Finset.univ : Finset (Fin R)).fold min (Ideal.ofBits φ acc) (fun r => x (ix3 b r s)) :=
  (multiReduction_minimumf_single x acc h hφ hacc (ix2 b s)).trans
    (congrArg ((Finset.univ : Finset (Fin R)).fold min (Ideal.ofBits φ acc)) (funext fun r => congrArg x (LibMidMax.lift_mid3 h b s r)))

/-- A `B × 1 × 1` array spread over the last two axes to `B × R × S`: entry `(b, r, s)` is the array's entry `(b, 0, 0)`. -/
theorem broadcastTo_b11_brs_apply {B R S : ℕ} {α : Type} (v : (⟨3, ![B, 1, 1]⟩ : Shape).Idx → α)
    (h : (⟨3, ![B, 1, 1]⟩ : Shape).Broadcasts ⟨3, ![B, R, S]⟩) (b : Fin B) (r : Fin R) (s : Fin S) :
    broadcastTo ⟨3, ![B, R, S]⟩ v h (ix3 b r s) = v (ix3 b (0 : Fin 1) (0 : Fin 1)) := by
  refine broadcastTo_apply v h (ix3 b r s) (ix3 b (0 : Fin 1) (0 : Fin 1)) fun ax => ?_
  match ax with
  | ⟨0, _⟩ =>
    show b.val = if B = 1 then 0 else b.val
    split
    · have := b.isLt; omega
    · rfl
  | ⟨1, _⟩ => rfl
  | ⟨2, _⟩ => rfl

end Cert.LibExtrema
-- ==== Proof.LibRecip.lean ====
/-
  Multiplying by a reciprocal against dividing, on the extended reals.

  A quotient by a nonzero `y` is the product with `y⁻¹` (the inverse of either infinity being zero), so `1 / y = y⁻¹`
  and `x · (1 / y) = x / y` for every extended real `x`, the infinities included: a precomputed reciprocal meets a
  division without any finiteness. The larger of anything and one is at least one, hence never zero: a count clamped
  below by one is a safe divisor whatever the count is. Also here: the host's entrywise quotient read at an index.
-/
import Idealize.ShloMosaic.PureOps.Ideal
import Idealize.ShloMosaic.PureOps.Vector

namespace Cert.LibRecip

open Idealize.ShloMosaic

/-- The larger of anything and one is not zero. -/
theorem max_one_ne_zero (y : EReal) : max y 1 ≠ 0 :=
  ne_of_gt (lt_of_lt_of_le zero_lt_one (le_max_right y 1))

/-- Off zero, one over `d` is the inverse of `d`. -/
theorem one_div (d : EReal) (hd : d ≠ 0) : Ideal.div 1 d = d⁻¹ := by
  unfold Ideal.div
  rw [if_neg hd, one_mul]

/-- Off zero, multiplying by the reciprocal is dividing. -/
theorem mul_recip (x d : EReal) (hd : d ≠ 0) : x * Ideal.div 1 d = Ideal.div x d := by
  unfold Ideal.div
  rw [if_neg hd, if_neg hd, one_mul]

/-- The host's entrywise quotient at an index. -/
theorem host_divf_apply {s : Shape} {φ : FTy} (a b : FVec Ideal s φ) (i : s.Idx) :
    Host.divf a b i = Ideal.div (a i) (b i) := rfl

end Cert.LibRecip
-- ==== Proof.MinMaxNorm.lean ====
/-
  Min-max normalization of a finite family of extended reals, in its two spellings.

  For a family `f` let `lo f` be its least and `hi f` its greatest entry (infimum and supremum). The normalized entry is
  `(f k - lo f) / ((hi f - lo f) + ε)` with a fixed positive real `ε`; a program may instead multiply `f k - lo f` by the
  reciprocal `1 / ((hi f - lo f) + ε)` computed once. The two agree on ALL extended reals, the infinities included:
  a quotient by a nonzero `d` is the product with `d⁻¹`, and `(hi f - lo f) + ε` is never zero — when both extremes are
  real it is at least `ε > 0` because `lo f ≤ hi f`, and when either is infinite so is the sum.

  The families here are the matrices of a stack: matrix `n` of an `N × R × S` array, or matrix `(a, b, c)` of an
  `A × B × C × R × S` array, indexed by pairs (row, column). `stack3` normalizes every matrix of the first by the
  reciprocal, `stack5` every matrix of the second by the quotient.
-/
import Idealize.ShloMosaic.PureOps.Ideal
import Idealize.ShloMosaic.Lib.ValueIdx
import proofs.«134991_j51969104282122_2_alg».proof.Proof.LibRecip

noncomputable section

namespace Cert.MinMaxNorm

open Idealize.ShloMosaic

/-- The positive offset added to the range: the f32 word `0x322BCC77` (the float nearest to `10⁻⁸`). -/
def eps : EReal := Ideal.ofBits .f32 0x322BCC77#32

/-- The offset is the real number `11258999 · 2⁻⁵⁰`. -/
theorem eps_eq : eps = ((11258999 : ℝ) * (2 : ℝ) ^ (-50 : ℤ) : ℝ) := by
  unfold eps
  simp [Ideal.ofBits, Ideal.ieee, -EReal.coe_mul]

/-- The f32 word `0x3F800000` is the number one. -/
theorem ofBits_one : Ideal.ofBits .f32 0x3F800000#32 = 1 := by
  simp [Ideal.ofBits, Ideal.ieee, -EReal.coe_mul]; norm_num

/-- A range `b - a` with `a ≤ b`, plus a positive real, is never zero: positive when both ends are real, infinite
    otherwise. -/
theorem range_add_pos_ne_zero (a b : EReal) (hab : a ≤ b) (e : ℝ) (he : 0 < e) : (b - a) + (e : EReal) ≠ 0 := by
  induction a using EReal.rec with
  | bot =>
    induction b using EReal.rec with
    | bot => simp
    | coe b => simp
    | top => simp
  | coe a =>
    induction b using EReal.rec with
    | bot => simp
    | coe b =>
      have hab' : a ≤ b := EReal.coe_le_coe_iff.1 hab
      rw [← EReal.coe_sub, ← EReal.coe_add]
      intro h
      have : b - a + e = 0 := by exact_mod_cast h
      linarith
    | top => simp
  | top =>
    induction b using EReal.rec with
    | bot => simp
    | coe b => simp
    | top => simp

section Family
variable {ι : Type}

/-- The least entry of a family. -/
def lo (f : ι → EReal) : EReal := ⨅ k, f k
/-- The greatest entry of a family. -/
def hi (f : ι → EReal) : EReal := ⨆ k, f k

/-- The denominator: the family's range plus the offset. -/
def denom (f : ι → EReal) : EReal := (hi f - lo f) + eps

/-- The normalized entry, as a quotient. -/
def normDiv (f : ι → EReal) (k : ι) : EReal := Ideal.div (f k - lo f) (denom f)
/-- The normalized entry, as a product with the reciprocal of the denominator. -/
def normRecip (f : ι → EReal) (k : ι) : EReal := (f k - lo f) * Ideal.div 1 (denom f)

/-- The denominator of a nonempty family is not zero. -/
theorem denom_ne_zero [Nonempty ι] (f : ι → EReal) : denom f ≠ 0 := by
  unfold denom
  rw [eps_eq]
  exact range_add_pos_ne_zero (lo f) (hi f) (iInf_le_iSup) _ (by positivity)

/-- Multiplying by the reciprocal of the denominator is dividing by it. -/
theorem normRecip_eq_normDiv [Nonempty ι] (f : ι → EReal) (k : ι) : normRecip f k = normDiv f k :=
  LibRecip.mul_recip _ _ (denom_ne_zero f)

end Family

open Idealize.ShloMosaic.ValueIdx

/-- Matrix `n` of an `N × R × S` array, as a family over (row, column). -/
def slice3 {N R S : ℕ} (X : (⟨3, ![N, R, S]⟩ : Shape).Idx → EReal) (n : Fin N) : Fin R × Fin S → EReal :=
  fun p => X (ix3 n p.1 p.2)

/-- Matrix `(a, b, c)` of an `A × B × C × R × S` array, as a family over (row, column). -/
def slice5 {A B C R S : ℕ} (X : (⟨5, ![A, B, C, R, S]⟩ : Shape).Idx → EReal) (a : Fin A) (b : Fin B) (c : Fin C) :
    Fin R × Fin S → EReal :=
  fun p => X (ix5 a b c p.1 p.2)

/-- Every matrix of an `N × R × S` array normalized, by the reciprocal of its denominator. -/
def stack3 {N R S : ℕ} (X : (⟨3, ![N, R, S]⟩ : Shape).Idx → EReal) : (⟨3, ![N, R, S]⟩ : Shape).Idx → EReal :=
  fun i => normRecip (slice3 X (i 0)) (i 1, i 2)

/-- A block of the stack normalizes to the block of the normalized stack: entry `y` of the normalized block `xb` is entry
    `i` of the normalized stack `X` when matrix `y 0` of the block is matrix `i 0` of the stack and the two indices have
    the same row and column. -/
theorem stack3_block {M N R S : ℕ} (xb : (⟨3, ![M, R, S]⟩ : Shape).Idx → EReal) (X : (⟨3, ![N, R, S]⟩ : Shape).Idx → EReal)
    (y : (⟨3, ![M, R, S]⟩ : Shape).Idx) (i : (⟨3, ![N, R, S]⟩ : Shape).Idx)
    (h0 : ∀ (r : Fin R) (s : Fin S), xb (ix3 (y 0) r s) = X (ix3 (i 0) r s))
    (h1 : (y 1).val = (i 1).val) (h2 : (y 2).val = (i 2).val) : stack3 xb y = stack3 X i := by
  unfold stack3
  have e : slice3 xb (y 0) = slice3 X (i 0) := funext fun p => h0 p.1 p.2
  have e1 : (y 1 : Fin R) = i 1 := Fin.ext h1
  have e2 : (y 2 : Fin S) = i 2 := Fin.ext h2
  rw [e]
  exact congrArg (normRecip (slice3 X (i 0))) (Prod.ext e1 e2)

/-- Every matrix of an `A × B × C × R × S` array normalized, by the quotient. -/
def stack5 {A B C R S : ℕ} (X : (⟨5, ![A, B, C, R, S]⟩ : Shape).Idx → EReal) :
    (⟨5, ![A, B, C, R, S]⟩ : Shape).Idx → EReal :=
  fun i => normDiv (slice5 X (i 0) (i 1) (i 2)) (i 3, i 4)

end Cert.MinMaxNorm

end
-- ==== Proof.KernelBody.lean ====
/-
  What the kernel's body computes from one block of 96 matrices.

  The body takes the least entry of each matrix in two steps — the minimum of every row, then the minimum of those — and
  the greatest likewise; both are the infimum and the supremum over the matrix's (row, column) pairs. It then subtracts
  the least entry from every entry and multiplies by the reciprocal of (greatest − least + ε): the block with every
  matrix normalized (`MinMaxNorm.stack3`).
-/
import proofs.«134991_j51969104282122_2_alg».proof.Proof.Gen.KernelIdeal.Skeleton
import proofs.«134991_j51969104282122_2_alg».proof.Proof.LibExtrema
import proofs.«134991_j51969104282122_2_alg».proof.Proof.MinMaxNorm
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen Cert.MinMaxNorm

/-- The least entry of matrix `b` of the block, as the body takes it: the minimum of each row, then the minimum of those. -/
theorem least_apply (x : FVec Ideal S96x128x128 .f32) (h1 : S96x128x128.Reduces [2] S96x128) (hc1 : S96x128.ShapeCasts S96x128x1)
    (h2 : S96x128x1.Reduces [1] S96x1) (hc2 : S96x1.ShapeCasts S96x1x1) (hf : FKind.Formats .f32)
    (ha : (0x7F800000#32 : BitVec 32) = FKind.minimumf.neutral .f32 hf) (b : Fin 96) (u v : Fin 1) :
    shapeCast S96x1x1 (multiReduction .minimumf [1] S96x1
        (shapeCast S96x128x1 (multiReduction .minimumf [2] S96x128 x 0x7F800000#32 h1 hf ha) hc1) 0x7F800000#32 h2 hf ha) hc2 (ix3 b u v)
      = lo (slice3 x b) := by
  refine (LibPooling.shapeCast_bc_bc1_apply (B := 96) (C := 1) (multiReduction .minimumf [1] S96x1
        (shapeCast S96x128x1 (multiReduction .minimumf [2] S96x128 x 0x7F800000#32 h1 hf ha) hc1) 0x7F800000#32 h2 hf ha) hc2 b u v).trans ?_
  refine (LibExtrema.min_mid3_apply (B := 96) (R := 128) (S := 1)
    (shapeCast S96x128x1 (multiReduction .minimumf [2] S96x128 x 0x7F800000#32 h1 hf ha) hc1) 0x7F800000#32 h2 hf ha b u).trans ?_
  rw [LibExtrema.ofBits_pinf, LibExtrema.fold_min_univ_top]
  unfold lo slice3
  rw [iInf_prod]
  refine iInf_congr fun r => ?_
  refine (LibPooling.shapeCast_bc_bc1_apply (B := 96) (C := 128) (multiReduction .minimumf [2] S96x128 x 0x7F800000#32 h1 hf ha) hc1 b r u).trans ?_
  refine (LibExtrema.min_last3_apply (B := 96) (C := 128) (S := 128) x 0x7F800000#32 h1 hf ha b r).trans ?_
  rw [LibExtrema.ofBits_pinf, LibExtrema.fold_min_univ_top]

/-- The greatest entry of matrix `b` of the block, likewise. -/
theorem greatest_apply (x : FVec Ideal S96x128x128 .f32) (h1 : S96x128x128.Reduces [2] S96x128) (hc1 : S96x128.ShapeCasts S96x128x1)
    (h2 : S96x128x1.Reduces [1] S96x1) (hc2 : S96x1.ShapeCasts S96x1x1) (hf : FKind.Formats .f32)
    (ha : (0xFF800000#32 : BitVec 32) = FKind.maximumf.neutral .f32 hf) (b : Fin 96) (u v : Fin 1) :
    shapeCast S96x1x1 (multiReduction .maximumf [1] S96x1
        (shapeCast S96x128x1 (multiReduction .maximumf [2] S96x128 x 0xFF800000#32 h1 hf ha) hc1) 0xFF800000#32 h2 hf ha) hc2 (ix3 b u v)
      = hi (slice3 x b) := by
  refine (LibPooling.shapeCast_bc_bc1_apply (B := 96) (C := 1) (multiReduction .maximumf [1] S96x1
        (shapeCast S96x128x1 (multiReduction .maximumf [2] S96x128 x 0xFF800000#32 h1 hf ha) hc1) 0xFF800000#32 h2 hf ha) hc2 b u v).trans ?_
  refine (LibMidMax.max_mid3_apply (B := 96) (R := 128) (S := 1)
    (shapeCast S96x128x1 (multiReduction .maximumf [2] S96x128 x 0xFF800000#32 h1 hf ha) hc1) 0xFF800000#32 h2 hf ha b u).trans ?_
  rw [LibExtrema.ofBits_ninf, LibExtrema.fold_max_univ_bot]
  unfold hi slice3
  rw [iSup_prod]
  refine iSup_congr fun r => ?_
  refine (LibPooling.shapeCast_bc_bc1_apply (B := 96) (C := 128) (multiReduction .maximumf [2] S96x128 x 0xFF800000#32 h1 hf ha) hc1 b r u).trans ?_
  refine (LibPooling.max_last3_apply (B := 96) (C := 128) (S := 128) x 0xFF800000#32 h1 hf ha b r).trans ?_
  rw [LibExtrema.ofBits_ninf, LibExtrema.fold_max_univ_bot]

/-- Entry `(b, r, s)` of the body's last product, from the block and the two columns of extremes: the entry less the
    least, times the reciprocal of the range plus the offset. -/
theorem combine (x : FVec Ideal S96x128x128 .f32) (mn mx : FVec Ideal S96x1x1 .f32) (hb : S96x1x1.Broadcasts S96x128x128)
    (b : Fin 96) (r s : Fin 128) (L H : EReal) (hmn : mn (ix3 b (0 : Fin 1) (0 : Fin 1)) = L) (hmx : mx (ix3 b (0 : Fin 1) (0 : Fin 1)) = H) :
    mulf (subf x (broadcastTo S96x128x128 mn hb))
        (broadcastTo S96x128x128 (divf (broadcast S96x1x1 (FloatOps.ofBits .f32 0x3F800000#32))
          (addf (subf mx mn) (broadcast S96x1x1 (FloatOps.ofBits .f32 0x322BCC77#32)))) hb) (ix3 b r s)
      = (x (ix3 b r s) - L) * Ideal.div 1 ((H - L) + eps) := by
  rw [mulf_apply, subf_apply, LibExtrema.broadcastTo_b11_brs_apply (B := 96) (R := 128) (S := 128) mn hb b r s,
    LibExtrema.broadcastTo_b11_brs_apply (B := 96) (R := 128) (S := 128) _ hb b r s, divf_apply, addf_apply, subf_apply,
    broadcast_apply, broadcast_apply, hmn, hmx, Ideal.ofBits_def, Ideal.ofBits_def, ofBits_one]
  rfl

/-- The body's stored value is the block with every matrix normalized. -/
theorem pay_eq (x0 : Vec Ideal S96x128x128 .f32) : k0_pay1 (F := Ideal) x0 = stack3 x0 := by
  funext j
  obtain ⟨b, r, s, rfl⟩ : ∃ (b : Fin 96) (r : Fin 128) (s : Fin 128), j = ix3 b r s := ⟨j 0, j 1, j 2, eq_ix3 j⟩
  unfold k0_pay1
  rw [shapeCast_self x0 shapeCasts_S96x128x128_S96x128x128]
  show _ = (x0 (ix3 b r s) - lo (slice3 x0 b)) * Ideal.div 1 ((hi (slice3 x0 b) - lo (slice3 x0 b)) + eps)
  exact combine x0
    (shapeCast S96x1x1 (multiReduction .minimumf [1] S96x1 (shapeCast S96x128x1 (multiReduction .minimumf [2] S96x128 x0 0x7F800000#32 reduces_S96x128x128_S96x128 (.inl rfl) rfl) shapeCasts_S96x128_S96x128x1) 0x7F800000#32 reduces_S96x128x1_S96x1 (.inl rfl) rfl) shapeCasts_S96x1_S96x1x1)
    (shapeCast S96x1x1 (multiReduction .maximumf [1] S96x1 (shapeCast S96x128x1 (multiReduction .maximumf [2] S96x128 x0 0xFF800000#32 reduces_S96x128x128_S96x128 (.inl rfl) rfl) shapeCasts_S96x128_S96x128x1) 0xFF800000#32 reduces_S96x128x1_S96x1 (.inl rfl) rfl) shapeCasts_S96x1_S96x1x1)
    broadcasts_S96x1x1_S96x128x128 b r s (lo (slice3 x0 b)) (hi (slice3 x0 b))
    (least_apply x0 reduces_S96x128x128_S96x128 shapeCasts_S96x128_S96x128x1 reduces_S96x128x1_S96x1 shapeCasts_S96x1_S96x1x1 (.inl rfl) rfl b 0 0)
    (greatest_apply x0 reduces_S96x128x128_S96x128 shapeCasts_S96x128_S96x128x1 reduces_S96x128x1_S96x1 shapeCasts_S96x1_S96x1x1 (.inl rfl) rfl b 0 0)

end Cert.KernelIdeal.Body

end
-- ==== Proof.Relaid.lean ====
/-
  Normalizing the matrices of a 16 × 12 × 32 × 128 × 128 array through its re-laying as 6144 × 128 × 128.

  Matrix `(a, b, c)` of the five-axis array is matrix `n = (12 a + b) · 32 + c` of the three-axis one: the two indices
  `(a, b, c, r, s)` and `(n, r, s)` have the same row-major position. So normalizing every matrix of the re-laid array
  (by the reciprocal of its denominator) and re-laying the result back normalizes every matrix of the five-axis array
  (by the quotient): the matrices are the same families, and the two spellings of the normalization agree.
-/
import proofs.«134991_j51969104282122_2_alg».proof.Proof.MinMaxNorm
import Idealize.ShloMosaic.Lib.Pipeline.Value

noncomputable section

namespace Cert.MinMaxNorm

open Idealize.ShloMosaic Idealize.ShloMosaic.ValueIdx

/-- The number of matrix `(a, b, c)` among the 6144. -/
def flat (a : Fin 16) (b : Fin 12) (c : Fin 32) : Fin 6144 := ⟨(a.val * 12 + b.val) * 32 + c.val, by omega⟩

/-- The two indices have one row-major position. -/
theorem pos_eq (a : Fin 16) (b : Fin 12) (c : Fin 32) (r s : Fin 128) :
    ((⟨3, ![6144, 128, 128]⟩ : Shape).rowMajor (ix3 (flat a b c) r s)).val
      = ((⟨5, ![16, 12, 32, 128, 128]⟩ : Shape).rowMajor (ix5 a b c r s)).val := by
  rw [Shape.rowMajor_val_three, Shape.rowMajor_val_five]
  show (((a.val * 12 + b.val) * 32 + c.val) * 128 + r.val) * 128 + s.val
    = ((((a.val * 12 + b.val) * 32 + c.val) * 128 + r.val) * 128 + s.val)
  rfl

/-- Normalize the re-laid array's matrices, re-lay back: every matrix of the five-axis array normalized. -/
theorem relaid_eq (x : (⟨5, ![16, 12, 32, 128, 128]⟩ : Shape).Idx → EReal)
    (h53 : (⟨5, ![16, 12, 32, 128, 128]⟩ : Shape).ShapeCasts ⟨3, ![6144, 128, 128]⟩)
    (h35 : (⟨3, ![6144, 128, 128]⟩ : Shape).ShapeCasts ⟨5, ![16, 12, 32, 128, 128]⟩) :
    shapeCast ⟨5, ![16, 12, 32, 128, 128]⟩ (stack3 (shapeCast ⟨3, ![6144, 128, 128]⟩ x h53)) h35 = stack5 x := by
  funext i
  obtain ⟨a, b, c, r, s, rfl⟩ : ∃ (a : Fin 16) (b : Fin 12) (c : Fin 32) (r s : Fin 128), i = ix5 a b c r s :=
    ⟨i 0, i 1, i 2, i 3, i 4, eq_ix5 i⟩
  refine (shapeCast_apply (stack3 (shapeCast ⟨3, ![6144, 128, 128]⟩ x h53)) h35 (ix5 a b c r s) (ix3 (flat a b c) r s)
    (pos_eq a b c r s)).trans ?_
  have e : slice3 (shapeCast ⟨3, ![6144, 128, 128]⟩ x h53) (flat a b c) = slice5 x a b c := funext fun p =>
    shapeCast_apply x h53 (ix3 (flat a b c) p.1 p.2) (ix5 a b c p.1 p.2) (pos_eq a b c p.1 p.2).symm
  show normRecip (slice3 (shapeCast ⟨3, ![6144, 128, 128]⟩ x h53) (flat a b c)) (r, s) = normDiv (slice5 x a b c) (r, s)
  rw [e, normRecip_eq_normDiv]

end Cert.MinMaxNorm

end
-- ==== Proof.KernelValue.lean ====
/-
  What the kernel's run leaves in its result, as one function of the argument.

  The host first re-lays the 16 × 12 × 32 × 128 × 128 argument as 6144 matrices. Grid point `t` stages matrices
  `96 t … 96 t + 95`, and the body writes back that block with every matrix normalized; a matrix's normalization reads
  the matrix alone, so the block written back is the same block of the whole re-laid array normalized. The 64 blocks
  tile the array (matrix `n` is in block `n / 96`), so the region's output is the re-laid argument with every matrix
  normalized, and the host's final re-laying gives every matrix of the five-axis argument normalized.
-/
import proofs.«134991_j51969104282122_2_alg».proof.Proof.Gen.KernelIdeal.Frame
import proofs.«134991_j51969104282122_2_alg».proof.Proof.KernelBody
import proofs.«134991_j51969104282122_2_alg».proof.Proof.Relaid
import Idealize.ShloMosaic.Lib.Pipeline.Value
import Idealize.ShloMosaic.Lib.StableHlo.Run
import Idealize.ShloMosaic.Lib.Tactic

set_option maxRecDepth 16384

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.MinMaxNorm

variable (m : (ℓ : Loc nD τ sig) → Buf (Elt Ideal) ℓ) (ρ : Dev nD → PrngReg)

theorem hz : (![0, 0, 0] : Fin 3 → Nat) = fun _ => 0 := funext fun a => by fin_cases a <;> rfl

/-- Both windows' block at point `t` is block `t` along the first axis and the whole of the other two. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The array the region reads is the argument re-laid as 6144 matrices. -/
theorem V_main_v0 (c : Dev nD) :
    (V m c main_v0 : S6144x128x128.Idx → EReal)
      = shapeCast S6144x128x128 (m ((c : Thread nD τ).loc main_arg0)) shapeCasts_S16x12x32x128x128_S6144x128x128 := by
  show StableHlo.after hostOps0 (fun b => m (c, b)) (Proc.devRef .tc main_v0) = _
  after_results
  rfl

/-- What point `t` writes back is block `t` of the re-laid argument with every matrix normalized. -/
theorem flushed_eq (c : Dev nD) (t : Fin cfg0.N) :
    (dats m 0 c).flushed 1 t = ((cfg0.win 1).blk t).view.read (Elt Ideal) (stack3 (V m c main_v0 : S6144x128x128.Idx → EReal)) := by
  show (cfg0.win 1).cut (grid0.coords t) ((dats m 0 c).after 1 t) = _
  rw [after0_1]
  unfold out0_1
  rw [View.canon_unit_zero hz]
  simp only [View.ld_unit_zero (S := S96x128x128) hz]
  rw [Body.pay_eq]
  obtain ⟨e0, e1, e2, e3, e4, e5⟩ := idx_facts t
  funext y
  show stack3 (iblk m c 0 t) y = stack3 (V m c main_v0 : S6144x128x128.Idx → EReal) (((cfg0.win 1).blk t).view.emb y)
  refine stack3_block (M := 96) (N := 6144) (R := 128) (S := 128) (iblk m c 0 t) (V m c main_v0 : S6144x128x128.Idx → EReal) y
    (((cfg0.win 1).blk t).view.emb y) (fun r s => ?_) ?_ ?_
  · show V m c main_v0 (((cfg0.win 0).blk t).view.emb (ix3 (y 0) r s))
      = V m c main_v0 (ix3 ((((cfg0.win 1).blk t).view.emb y) 0) r s)
    refine congrArg (V m c main_v0) (funext fun a => Fin.ext ?_)
    match a with
    | ⟨0, _⟩ => show win0_0.index t (0 : Fin 3) * 96 + 1 * (y 0).val = win0_1.index t (0 : Fin 3) * 96 + 1 * (y 0).val; omega
    | ⟨1, _⟩ => show win0_0.index t (1 : Fin 3) * 128 + 1 * r.val = r.val; omega
    | ⟨2, _⟩ => show win0_0.index t (2 : Fin 3) * 128 + 1 * s.val = s.val; omega
  · show (y 1).val = win0_1.index t (1 : Fin 3) * 128 + 1 * (y 1).val; omega
  · show (y 2).val = win0_1.index t (2 : Fin 3) * 128 + 1 * (y 2).val; omega

/-- An entry of the array is in point `t`'s block iff each coordinate is in the block's range on its axis. -/
theorem mem_blk (t : Fin cfg0.N) (i : S6144x128x128.Idx) :
    i ∈ ((cfg0.win 1).blk t).view.set ↔ ∀ a : Fin 3, win0_1.index t a * S96x128x128.size a ≤ (i a).val
      ∧ (i a).val < win0_1.index t a * S96x128x128.size a + S96x128x128.size a := by
  show i ∈ ((View.whole main_v1).slice (win0_1.rect t)).set ↔ _
  rw [View.set_slice_whole, Rect.mem_set_unit]
  exact Iff.rfl

/-- Every entry of the array is in some point's block: matrix `n` in block `n / 96`. -/
theorem cover (i : S6144x128x128.Idx) :
    ∃ t : Fin cfg0.N, (cfg0.win 1).flush t = true ∧ i ∈ ((cfg0.win 1).blk t).view.set := by
  have hi0 : (i 0).val < 6144 := (i 0).isLt
  have hi1 : (i 1).val < 128 := (i 1).isLt
  have hi2 : (i 2).val < 128 := (i 2).isLt
  have hN : cfg0.N = 64 := N_0
  refine ⟨⟨(i 0).val / 96, by rw [hN]; omega⟩, flush0_1 _, ?_⟩
  obtain ⟨-, -, -, e3, e4, e5⟩ := idx_facts ⟨(i 0).val / 96, by rw [hN]; omega⟩
  rw [mem_blk]
  intro a
  match a with
  | ⟨0, _⟩ =>
    show win0_1.index _ (0 : Fin 3) * 96 ≤ (i 0).val ∧ (i 0).val < win0_1.index _ (0 : Fin 3) * 96 + 96
    rw [e3]; show (i 0).val / 96 * 96 ≤ (i 0).val ∧ (i 0).val < (i 0).val / 96 * 96 + 96; omega
  | ⟨1, _⟩ =>
    show win0_1.index _ (1 : Fin 3) * 128 ≤ (i 1).val ∧ (i 1).val < win0_1.index _ (1 : Fin 3) * 128 + 128
    rw [e4]; omega
  | ⟨2, _⟩ =>
    show win0_1.index _ (2 : Fin 3) * 128 ≤ (i 2).val ∧ (i 2).val < win0_1.index _ (2 : Fin 3) * 128 + 128
    rw [e5]; omega

/-- The region's output array ends as the re-laid argument with every matrix normalized. -/
theorem final (c : Dev nD) :
    (dats m 0 c).arrAt 1 cfg0.N = stack3 (V m c main_v0 : S6144x128x128.Idx → EReal) :=
  (dats m 0 c).arrAt_eq_of_cover 1 (stack3 (V m c main_v0 : S6144x128x128.Idx → EReal)) (fun t _ => flushed_eq m c t) cover

/-- The program's result, after the host's last re-laying: every matrix of the argument normalized, by the quotient. -/
theorem result_eq (c : Dev nD) :
    (Pipeline.afterTail₀ cfgs (dats m) 0 (V0 m) [hostOps1] c main_v2 : S16x12x32x128x128.Idx → EReal)
      = stack5 (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = stack3 (V m c main_v0 : S6144x128x128.Idx → EReal) :=
    (Pipeline.withArrays_arr spec0 launch0.win.arr_inj c _ _ 1).trans (final m c)
  show shapeCast S16x12x32x128x128 (Pipeline.withArrays (cfgs 0).spec c (V0 m c) (fun w => (dats m 0 c).arrAt w (cfgs 0).N)
      (Proc.devRef .tc main_v1)) shapeCasts_S6144x128x128_S16x12x32x128x128 = _
  rw [hw, V_main_v0]
  exact relaid_eq _ _ _

/-- The kernel's run, read: the result at every matrix of the argument normalized, the argument unchanged. -/
theorem run : θ_run defs (onTc (τ := τ) (main (F := Ideal))) ⟨m, fun _ => 0, ρ⟩ fun r => ∀ c : Dev nD,
      r.2.mem ((c.tc : Thread nD τ).loc main_v2) = stack5 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.KernelValue

end
-- ==== Proof.RefValue.lean ====
/-
  What the reference computes, entry by entry.

  The reference takes the minimum and the maximum of every matrix in one reduction over both matrix axes — a fold over
  the entries of the five-axis array whose first three coordinates are the matrix's — which is the infimum, and the
  supremum, over the matrix's (row, column) pairs. It then divides each entry less the least by
  (greatest − least + ε): every matrix normalized by the quotient (`MinMaxNorm.stack5`).
-/
import proofs.«134991_j51969104282122_2_alg».proof.Proof.Gen.ReferenceIdeal.Read
import proofs.«134991_j51969104282122_2_alg».proof.Proof.LibExtrema
import proofs.«134991_j51969104282122_2_alg».proof.Proof.MinMaxNorm
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read
  Cert.MinMaxNorm

/-- The entries that a reduction over the two matrix axes folds into `(a, b, c)` are exactly the entries
    `(a, b, c, r, s)` of that matrix. -/
theorem fiber_iff (h : S16x12x32x128x128.ReducesTo [3, 4] S16x12x32) (a : Fin 16) (b : Fin 12) (c : Fin 32)
    (i : S16x12x32x128x128.Idx) :
    h.drop i = ix3 a b c ↔ ∃ p : Fin 128 × Fin 128, ix5 a b c p.1 p.2 = i := by
  have d0 : ∀ i : S16x12x32x128x128.Idx, (h.drop i 0 : ℕ) = i 0 := fun i => h.drop_apply_val_of_eq i 0 0
  have d1 : ∀ i : S16x12x32x128x128.Idx, (h.drop i 1 : ℕ) = i 1 := fun i => h.drop_apply_val_of_eq i 1 1
  have d2 : ∀ i : S16x12x32x128x128.Idx, (h.drop i 2 : ℕ) = i 2 := fun i => h.drop_apply_val_of_eq i 2 2
  constructor
  · intro e
    refine ⟨(i 3, i 4), ?_⟩
    have e0 : (i 0).val = a.val := by rw [← d0 i, e]
    have e1 : (i 1).val = b.val := by rw [← d1 i, e]
    have e2 : (i 2).val = c.val := by rw [← d2 i, e]
    funext k
    apply Fin.ext
    match k with
    | ⟨0, _⟩ => exact e0.symm
    | ⟨1, _⟩ => exact e1.symm
    | ⟨2, _⟩ => exact e2.symm
    | ⟨3, _⟩ => rfl
    | ⟨4, _⟩ => rfl
  · rintro ⟨p, rfl⟩
    funext k
    apply Fin.ext
    match k with
    | ⟨0, _⟩ => exact d0 _
    | ⟨1, _⟩ => exact d1 _
    | ⟨2, _⟩ => exact d2 _

/-- The reference's minimum over matrix `(a, b, c)` is the matrix's least entry. -/
theorem least_apply (x : FVec Ideal S16x12x32x128x128 .f32) (a : Fin 16) (b : Fin 12) (c : Fin 32) :
    val_main_v0 (F := Ideal) x (ix3 a b c) = lo (slice5 x a b c) := by
  unfold val_main_v0
  refine (Host.reduce_eq_fold FloatOps.minimumf x (val_main_cst (F := Ideal)) reducesTo_S16x12x32x128x128_S16x12x32_d3_4 h_S_ (ix3 a b c)).trans ?_
  show (Finset.univ.filter fun i => reducesTo_S16x12x32x128x128_S16x12x32_d3_4.drop i = ix3 a b c).fold min (Ideal.ofBits .f32 0x7F800000#32) x = _
  rw [LibExtrema.ofBits_pinf]
  exact LibExtrema.fold_min_fiber _ (fun p : Fin 128 × Fin 128 => ix5 a b c p.1 p.2)
    (fiber_iff reducesTo_S16x12x32x128x128_S16x12x32_d3_4 a b c) x

/-- The reference's maximum over matrix `(a, b, c)` is the matrix's greatest entry. -/
theorem greatest_apply (x : FVec Ideal S16x12x32x128x128 .f32) (a : Fin 16) (b : Fin 12) (c : Fin 32) :
    val_main_v2 (F := Ideal) x (ix3 a b c) = hi (slice5 x a b c) := by
  unfold val_main_v2
  refine (Host.reduce_eq_fold FloatOps.maximumf x (val_main_cst_0 (F := Ideal)) reducesTo_S16x12x32x128x128_S16x12x32_d3_4 h_S_ (ix3 a b c)).trans ?_
  show (Finset.univ.filter fun i => reducesTo_S16x12x32x128x128_S16x12x32_d3_4.drop i = ix3 a b c).fold max (Ideal.ofBits .f32 0xFF800000#32) x = _
  rw [LibExtrema.ofBits_ninf]
  exact LibExtrema.fold_max_fiber _ (fun p : Fin 128 × Fin 128 => ix5 a b c p.1 p.2)
    (fiber_iff reducesTo_S16x12x32x128x128_S16x12x32_d3_4 a b c) x

/-- The reference's result is the argument with every matrix normalized, by the quotient. -/
theorem ref_eq (x : FVec Ideal S16x12x32x128x128 .f32) : val_main_v10 (F := Ideal) x = stack5 x := by
  funext i
  obtain ⟨a, b, c, r, s, rfl⟩ : ∃ (a : Fin 16) (b : Fin 12) (c : Fin 32) (r s : Fin 128), i = ix5 a b c r s :=
    ⟨i 0, i 1, i 2, i 3, i 4, eq_ix5 i⟩
  have e1 : idx_main_v1 (idx_main_v4 (ix5 a b c r s)) = ix3 a b c :=
    funext fun k => Fin.ext (by match k with | ⟨0, _⟩ => rfl | ⟨1, _⟩ => rfl | ⟨2, _⟩ => rfl)
  have e3 : idx_main_v3 (idx_main_v9 (ix5 a b c r s)) = ix3 a b c :=
    funext fun k => Fin.ext (by match k with | ⟨0, _⟩ => rfl | ⟨1, _⟩ => rfl | ⟨2, _⟩ => rfl)
  rw [val_main_v10_apply, val_main_v5_apply, val_main_v4_apply, val_main_v1_apply, val_main_v9_apply, val_main_v8_apply,
    val_main_v6_apply, val_main_v3_apply, val_main_v1_apply, val_main_v7_apply, val_main_cst_1_apply, e1, e3,
    least_apply, greatest_apply]
  rfl

end Cert.ReferenceIdeal.RefValue

end
-- ==== Proof.lean ====
/-
  Min-max normalization of each 128 × 128 matrix of a 16 × 12 × 32 × 128 × 128 array: a tiled kernel against the
  plain array expression, equal on the extended reals.

  Both programs map every matrix `X` of the array to `(X − min X) / (max X − min X + ε)` with the same f32 literal
  `ε`. The kernel re-lays the array as 6144 matrices, walks them in 64 blocks of 96, takes each matrix's minimum and
  maximum in two steps (along the rows, then across them), and multiplies `X − min X` by the reciprocal
  `1 / (max X − min X + ε)` computed once per matrix; the reference reduces over both matrix axes at once and divides.

  * The two-step minimum (maximum) and the one-step one are the same infimum (supremum) over the matrix's entries
    (`LibExtrema`, `KernelBody`, `RefValue`).
  * Multiplying by the reciprocal is dividing, on every extended real, because the denominator is never zero: the
    range `max X − min X` is non-negative when both extremes are real and infinite otherwise, and `ε > 0`
    (`MinMaxNorm`). No finiteness of the input is used.
  * A matrix's normalization reads that matrix alone, so the blocks the kernel writes back are the blocks of one
    whole-array function, they tile the array, and the two re-layings cancel (`KernelValue`, `Relaid`).

  The three frames: the kernel's two are the generated frame theorems; the reference's is its generated run with the
  result dropped. The idealization rewrote nothing, so `preserves` is trivial.
-/
import proofs.«134991_j51969104282122_2_alg».proof.Defs
import proofs.«134991_j51969104282122_2_alg».proof.Proof.Gen.Kernel
import proofs.«134991_j51969104282122_2_alg».proof.Proof.Gen.Kernel.Skeleton
import proofs.«134991_j51969104282122_2_alg».proof.Proof.Gen.Kernel.Launch
import proofs.«134991_j51969104282122_2_alg».proof.Proof.Gen.Kernel.Points
import proofs.«134991_j51969104282122_2_alg».proof.Proof.Gen.Kernel.Frame
import proofs.«134991_j51969104282122_2_alg».proof.Proof.Gen.KernelIdeal
import proofs.«134991_j51969104282122_2_alg».proof.Proof.Gen.KernelIdeal.Skeleton
import proofs.«134991_j51969104282122_2_alg».proof.Proof.Gen.KernelIdeal.Launch
import proofs.«134991_j51969104282122_2_alg».proof.Proof.Gen.KernelIdeal.Points
import proofs.«134991_j51969104282122_2_alg».proof.Proof.Gen.KernelIdeal.Frame
import proofs.«134991_j51969104282122_2_alg».proof.Proof.Gen.ReferenceIdeal
import proofs.«134991_j51969104282122_2_alg».proof.Proof.Gen.ReferenceIdeal.Run
import proofs.«134991_j51969104282122_2_alg».proof.Proof.Gen.ReferenceIdeal.Read
import proofs.«134991_j51969104282122_2_alg».proof.Proof.Gen.Pre_finite_inputs
import proofs.«134991_j51969104282122_2_alg».proof.Proof.KernelValue
import proofs.«134991_j51969104282122_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with every matrix of the (agreeing) argument normalized: the kernel's run read as that function,
    the reference's generated run, whose term is that function entry by entry. -/
theorem algebraic : Cert.algebraic_KernelIdeal_ReferenceIdeal := by
  intro m ρ m' ρ' _ hagree
  refine ⟨fun c => Cert.MinMaxNorm.stack5 (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
